-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S4096x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S256x768 : Shape := ⟨2, ![256, 768]⟩
abbrev S256 : Shape := ⟨1, ![256]⟩
abbrev S256x64 : Shape := ⟨2, ![256, 64]⟩
abbrev S1 : Shape := ⟨1, ![1]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S32768x768 .f32) (main_arg1 : FVec F S256x768 .f32) (main_arg2 : FVec F S256 .f32) (main_arg3 : FVec F S256x64 .f32) (main_arg4 : FVec F S1 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S32768x768 : Shape := ⟨2, ![32768, 768]⟩
abbrev S256x768 : Shape := ⟨2, ![256, 768]⟩
abbrev S256 : Shape := ⟨1, ![256]⟩
abbrev S256x64 : Shape := ⟨2, ![256, 64]⟩
abbrev S1 : Shape := ⟨1, ![1]⟩
abbrev S768x256 : Shape := ⟨2, ![768, 256]⟩
abbrev S1x256 : Shape := ⟨2, ![1, 256]⟩
abbrev S1x1 : Shape := ⟨2, ![1, 1]⟩
abbrev S64x32768 : Shape := ⟨2, ![64, 32768]⟩
abbrev S4096x768 : Shape := ⟨2, ![4096, 768]⟩
abbrev S64x4096 : Shape := ⟨2, ![64, 4096]⟩
abbrev S4096x256 : Shape := ⟨2, ![4096, 256]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S32768x64 : Shape := ⟨2, ![32768, 64]⟩

abbrev nBuf : Space → Nat
  | .hbm => 11
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S256x768, .f32⟩
  | .hbm, ⟨2, _⟩ => ⟨S256, .f32⟩
  | .hbm, ⟨3, _⟩ => ⟨S256x64, .f32⟩
  | .hbm, ⟨4, _⟩ => ⟨S1, .f32⟩
  | .hbm, ⟨5, _⟩ => ⟨S768x256, .f32⟩
  | .hbm, ⟨6, _⟩ => ⟨S768x256, .bf16⟩
  | .hbm, ⟨7, _⟩ => ⟨S1x256, .f32⟩
  | .hbm, ⟨8, _⟩ => ⟨S1x1, .f32⟩
  | .hbm, ⟨9, _⟩ => ⟨S64x32768, .f32⟩
  | .hbm, ⟨10, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S768x256, .bf16⟩
  | .local _ .vmem, ⟨3, _⟩ => ⟨S1x256, .f32⟩
  | .local _ .vmem, ⟨4, _⟩ => ⟨S256x64, .f32⟩
  | .local _ .vmem, ⟨5, _⟩ => ⟨S1x1, .f32⟩
  | .local _ .vmem, ⟨6, _⟩ => ⟨S64x4096, .f32⟩
  | .local _ .vmem, ⟨7, _⟩ => ⟨S64x4096, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x768_S768x256_1_0 : S256x768.Transposes [1, 0] S768x256
  bitsLt_bf16_f32 : FTy.bits .bf16 < FTy.bits .f32
  shapeCasts_S256_S1x256 : S256.ShapeCasts S1x256
  shapeCasts_S1_S1x1 : S1.ShapeCasts S1x1
  inb_S4096x768_S4096x768_0_0 : ∀ a, (![0, 0] : Fin 2 → Nat) a + S4096x768.size a ≤ S4096x768.size a
  h_S4096x768 : 0 < S4096x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  inb_S256x64_S256x64_0_0 : ∀ a, (![0, 0] : Fin 2 → Nat) a + S256x64.size a ≤ S256x64.size a
  h_S256x64 : 0 < S256x64.numel
  reduces_S256x64_S64 : S256x64.Reduces [0] S64
  shapeCasts_S64_S1x64 : S64.ShapeCasts S1x64
  broadcasts_S1x64_S256x64 : S1x64.Broadcasts S256x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S4096x1_S4096x64 : S4096x1.Broadcasts S4096x64
  transposes_S4096x64_p1_0_S64x4096 : S4096x64.Transposes [1, 0] S64x4096
  inb_S64x4096_S64x4096_0_0 : ∀ a, (![0, 0] : Fin 2 → Nat) a + S64x4096.size a ≤ S64x4096.size a
  h_S64x4096 : 0 < S64x4096.numel
  transposes_S64x32768_S32768x64_1_0 : S64x32768.Transposes [1, 0] S32768x64
  dot_S4096x768_S768x256_S4096x256_1_0_0_1_n_n_wf : DotDims.WF S4096x768 S768x256 S4096x256 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .bf16 = 32 ∨ (Rect.block (s := S768x256) S768x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S64x32768.size a
  hwx0_5 : ∀ i : grid0.Coords, EltTy.bits .f32 = 32 ∨ (Rect.block (s := S64x32768) S64x4096.size (cc0_transform_5 i) (hinb0_5 i)).WholeWords (EltTy.packing .f32)

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x768 : Shape := ⟨2, ![32768, 768]⟩
abbrev S256x768 : Shape := ⟨2, ![256, 768]⟩
abbrev S256 : Shape := ⟨1, ![256]⟩
abbrev S256x64 : Shape := ⟨2, ![256, 64]⟩
abbrev S1 : Shape := ⟨1, ![1]⟩
abbrev S768x256 : Shape := ⟨2, ![768, 256]⟩
abbrev S32768x256 : Shape := ⟨2, ![32768, 256]⟩
abbrev S1x256 : Shape := ⟨2, ![1, 256]⟩
abbrev S_ : Shape := ⟨0, ![]⟩
abbrev S32768 : Shape := ⟨1, ![32768]⟩
abbrev S32768x1 : Shape := ⟨2, ![32768, 1]⟩
abbrev S64 : Shape := ⟨1, ![64]⟩
abbrev S1x64 : Shape := ⟨2, ![1, 64]⟩
abbrev S32768x64 : Shape := ⟨2, ![32768, 64]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S256x768, .f32⟩
  | .hbm, ⟨2, _⟩ => ⟨S256, .f32⟩
  | .hbm, ⟨3, _⟩ => ⟨S256x64, .f32⟩
  | .hbm, ⟨4, _⟩ => ⟨S1, .f32⟩
  | .hbm, ⟨5, _⟩ => ⟨S768x256, .f32⟩
  | .hbm, ⟨6, _⟩ => ⟨S32768x256, .f32⟩
  | .hbm, ⟨7, _⟩ => ⟨S1x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x256, .f32⟩
  | .hbm, ⟨19, _⟩ => ⟨S32768x256, .f32⟩
  | .hbm, ⟨20, _⟩ => ⟨S256x64, .f32⟩
  | .hbm, ⟨21, _⟩ => ⟨S_, .f32⟩
  | .hbm, ⟨22, _⟩ => ⟨S64, .f32⟩
  | .hbm, ⟨23, _⟩ => ⟨S1x64, .f32⟩
  | .hbm, ⟨24, _⟩ => ⟨S1x64, .f32⟩
  | .hbm, ⟨25, _⟩ => ⟨S_, .f32⟩
  | .hbm, ⟨26, _⟩ => ⟨S1x64, .f32⟩
  | .hbm, ⟨27, _⟩ => ⟨S1x64, .f32⟩
  | .hbm, ⟨28, _⟩ => ⟨S256x64, .f32⟩
  | .hbm, ⟨29, _⟩ => ⟨S256x64, .f32⟩
  | .hbm, ⟨30, _⟩ => ⟨S32768x64, .f32⟩
  | .hbm, ⟨31, _⟩ => ⟨S1, .f32⟩
  | .hbm, ⟨32, _⟩ => ⟨S1x1, .f32⟩
  | .hbm, ⟨33, _⟩ => ⟨S32768x64, .f32⟩
  | .hbm, ⟨34, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  transposes_S256x768_S768x256_1_0 : S256x768.Transposes [1, 0] S768x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  reducesTo_S32768x256_S32768_d1 : S32768x256.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  reducesTo_S256x64_S64_d0 : S256x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S256x64_0_1 : S1x64.BroadcastsInDim S256x64 (![0, 1] : Fin 2 → Fin S256x64.rank)
  bcast_S1_S1x1_1 : S1.BroadcastsInDim S1x1 (![1] : Fin 1 → Fin S1x1.rank)
  bcast_S1x1_S32768x64_0_1 : S1x1.BroadcastsInDim S32768x64 (![0, 1] : Fin 2 → Fin S32768x64.rank)
  dot_S32768x768_S768x256_S32768x256_1_0_0_1_n_n_wf : DotDims.WF S32768x768 S768x256 S32768x256 [1] [0] [0] [1] [] []
  dot_S32768x256_S256x64_S32768x64_1_0_0_1_n_n_wf : DotDims.WF S32768x256 S256x64 S32768x64 [1] [0] [0] [1] [] []

variable [Facts₀]

def dot_S32768x768_S768x256_S32768x256_1_0_0_1_n_n : DotDims S32768x768 S768x256 S32768x256 where
  lhsContracting := [1]
  rhsContracting := [0]
  lhsNonContracting := [0]
  rhsNonContracting := [1]
  lhsBatch := []
  rhsBatch := []
  wf := dot_S32768x768_S768x256_S32768x256_1_0_0_1_n_n_wf
def dot_S32768x256_S256x64_S32768x64_1_0_0_1_n_n : DotDims S32768x256 S256x64 S32768x64 where
  lhsContracting := [1]
  rhsContracting := [0]
  lhsNonContracting := [0]
  rhsNonContracting := [1]
  lhsBatch := []
  rhsBatch := []
  wf := dot_S32768x256_S256x64_S32768x64_1_0_0_1_n_n_wf

class Facts : Prop extends Facts₀ where

variable [Facts]
-- ==== Proof.Spec.lean ====
/-
  The mathematics of the cosine gate, free of any program: one token row `x` (768 entries), the projection
  weights `w` (256 × 768), the bias `b` (256), the expert matrix `s` (256 × 64) and the temperature `tm`.
  The projection is `p j = Σ_k x k · w j k + b j`; the clamped norm of a 256-vector is `max (√(Σ v²)) ε`.
  Two arrangements of the same number are stated:
    * `gateScaledColumns`: `(Σ_j p j · ((s j e / ‖s · e‖) · exp tm)) · (1 / ‖p‖)` — the expert columns are normalised
      and scaled by `exp tm` first, the row norm divides last;
    * `gateNormalisedRows`: `(Σ_j (p j / ‖p‖) · (s j e / ‖s · e‖)) · exp tm` — both factors normalised first, the
      temperature scale last.
  On the extended reals the two differ at infinities (a factor cannot cross a sum there), and agree when every input is a
  real number: then every intermediate is real, both clamped norms are at least `ε > 0`, each quotient is a product with
  a reciprocal, and the identity is distributivity and commutativity in ℝ.
-/
import Idealize.ShloMosaic.PureOps.Ideal
import Idealize.ShloMosaic.PureOps.Ideal.Laws

noncomputable section

namespace Cert.CosineGate

open Idealize.ShloMosaic

/-- The coercion ℝ → EReal commutes with finite sums. -/
theorem coe_sum {ι : Type} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The clamp `ε`: the single-precision number nearest 1e-12, exactly `9223372 · 2⁻⁶³`. -/
def epsR : ℝ := 9223372 * (2 : ℝ) ^ (-63 : Int)

theorem epsR_pos : 0 < epsR := by unfold epsR; positivity

theorem eps_eq : Ideal.ofBits .f32 0x2B8CBCCC#32 = ((epsR : ℝ) : EReal) := by
  unfold epsR
  simp [Ideal.ofBits, Ideal.ieee, -EReal.coe_mul]

theorem one_eq : Ideal.ofBits .f32 0x3F800000#32 = ((1 : ℝ) : EReal) := by
  simp [Ideal.ofBits, Ideal.ieee, -EReal.coe_mul]; norm_num

/-- The projection of one token row: `Σ_k x k · w j k + b j`. -/
def proj (x : Fin 768 → EReal) (w : Fin 256 → Fin 768 → EReal) (b : Fin 256 → EReal) (j : Fin 256) : EReal :=
  (∑ k : Fin 768, x k * w j k) + b j

/-- The clamped Euclidean norm of a 256-vector: `max (√(Σ_j v j²)) ε`. -/
def nrm (v : Fin 256 → EReal) : EReal :=
  max (Ideal.sqrt (∑ j : Fin 256, v j * v j)) (Ideal.ofBits .f32 0x2B8CBCCC#32)

/-- Expert columns normalised and scaled by the temperature first, the row norm dividing last. -/
def gateScaledColumns (x : Fin 768 → EReal) (w : Fin 256 → Fin 768 → EReal) (b : Fin 256 → EReal)
    (s : Fin 256 → Fin 64 → EReal) (tm : EReal) (e : Fin 64) : EReal :=
  (∑ j : Fin 256, proj x w b j * (Ideal.div (s j e) (nrm fun j' => s j' e) * Ideal.exp tm))
    * Ideal.div (Ideal.ofBits .f32 0x3F800000#32) (nrm (proj x w b))

/-- Rows and columns normalised first, the temperature scale last. -/
def gateNormalisedRows (x : Fin 768 → EReal) (w : Fin 256 → Fin 768 → EReal) (b : Fin 256 → EReal)
    (s : Fin 256 → Fin 64 → EReal) (tm : EReal) (e : Fin 64) : EReal :=
  (∑ j : Fin 256, Ideal.div (proj x w b j) (nrm (proj x w b)) * Ideal.div (s j e) (nrm fun j' => s j' e))
    * Ideal.exp tm

/-- The projection of real data is real. -/
theorem proj_coe (x : Fin 768 → ℝ) (w : Fin 256 → Fin 768 → ℝ) (b : Fin 256 → ℝ) (j : Fin 256) :
    proj (fun k => (x k : EReal)) (fun j k => (w j k : EReal)) (fun j => (b j : EReal)) j
      = (((∑ k : Fin 768, x k * w j k) + b j : ℝ) : EReal) := by
  unfold proj
  simp only [← EReal.coe_mul, coe_sum, ← EReal.coe_add]

/-- The clamped norm of a real vector is a real number, at least `ε`. -/
theorem nrm_coe (v : Fin 256 → ℝ) :
    nrm (fun j => (v j : EReal)) = ((max (Real.sqrt (∑ j : Fin 256, v j * v j)) epsR : ℝ) : EReal) := by
  unfold nrm
  simp only [← EReal.coe_mul, coe_sum]
  rw [Ideal.sqrt_coe, if_neg (not_lt.mpr (Finset.sum_nonneg fun j _ => mul_self_nonneg (v j))), eps_eq]
  exact (EReal.coe_strictMono.monotone.map_max).symm

theorem max_eps_ne_zero (a : ℝ) : max a epsR ≠ 0 :=
  (lt_of_lt_of_le epsR_pos (le_max_right a epsR)).ne'

/-- THE LAW: on real data the two arrangements are one number. -/
theorem gate_eq (x : Fin 768 → EReal) (w : Fin 256 → Fin 768 → EReal) (b : Fin 256 → EReal)
    (s : Fin 256 → Fin 64 → EReal) (tm : EReal) (e : Fin 64)
    (hx : ∀ k, ∃ r : ℝ, x k = (r : EReal)) (hw : ∀ j k, ∃ r : ℝ, w j k = (r : EReal))
    (hb : ∀ j, ∃ r : ℝ, b j = (r : EReal)) (hs : ∀ j e, ∃ r : ℝ, s j e = (r : EReal))
    (ht : ∃ r : ℝ, tm = (r : EReal)) :
    gateScaledColumns x w b s tm e = gateNormalisedRows x w b s tm e := by
  choose xr hx using hx
  choose wr hw using hw
  choose br hb using hb
  choose sr hs using hs
  obtain ⟨tr, rfl⟩ := ht
  obtain rfl : x = fun k => (xr k : EReal) := funext hx
  obtain rfl : w = fun j k => (wr j k : EReal) := funext fun j => funext fun k => hw j k
  obtain rfl : b = fun j => (br j : EReal) := funext hb
  obtain rfl : s = fun j e => (sr j e : EReal) := funext fun j => funext fun e => hs j e
  unfold gateScaledColumns gateNormalisedRows
  have hP : proj (fun k => (xr k : EReal)) (fun j k => (wr j k : EReal)) (fun j => (br j : EReal))
      = fun j => (((∑ k : Fin 768, xr k * wr j k) + br j : ℝ) : EReal) := funext fun j => proj_coe xr wr br j
  rw [hP, nrm_coe, nrm_coe, one_eq, Ideal.exp_coe]
  simp only [Ideal.div_coe (max_eps_ne_zero _), ← EReal.coe_mul, coe_sum]
  rw [EReal.coe_eq_coe_iff, Finset.sum_mul, Finset.sum_mul]
  exact Finset.sum_congr rfl fun j _ => by ring

end Cert.CosineGate

end
-- ==== Proof.Arrays.lean ====
/-
  The gate over whole arrays. The result has one row per token (32768) and one column per expert (64): entry (r, e) is the
  gate of token row `r` at expert `e`, in either arrangement of Spec.lean. When every entry of the five argument arrays is a
  real number the two whole-array functions are equal (`gate_eq`, entry by entry).
-/
import proofs.«157020_g85023172591907_cont_9to1c4b_591_34_alg».proof.Proof.Spec
import Idealize.ShloMosaic.Lib.ValueIdx

noncomputable section

namespace Cert.CosineGate

open Idealize.ShloMosaic Idealize.ShloMosaic.ValueIdx

/-- The 32768 × 64 result with the expert columns scaled first (the kernel's arrangement). -/
def arrayScaledColumns (a0 : (⟨2, ![32768, 768]⟩ : Shape).Idx → EReal) (a1 : (⟨2, ![256, 768]⟩ : Shape).Idx → EReal)
    (a2 : (⟨1, ![256]⟩ : Shape).Idx → EReal) (a3 : (⟨2, ![256, 64]⟩ : Shape).Idx → EReal) (a4 : (⟨1, ![1]⟩ : Shape).Idx → EReal) :
    (⟨2, ![32768, 64]⟩ : Shape).Idx → EReal := fun i =>
  gateScaledColumns (fun k => a0 (ix2 (⟨(i 0).val, (i 0).isLt⟩ : Fin 32768) k)) (fun j k => a1 (ix2 j k)) (fun j => a2 (ix1 j))
    (fun j e => a3 (ix2 j e)) (a4 (ix1 (0 : Fin 1))) (⟨(i 1).val, (i 1).isLt⟩ : Fin 64)

/-- The 32768 × 64 result with rows and columns normalised first (the reference's arrangement). -/
def arrayNormalisedRows (a0 : (⟨2, ![32768, 768]⟩ : Shape).Idx → EReal) (a1 : (⟨2, ![256, 768]⟩ : Shape).Idx → EReal)
    (a2 : (⟨1, ![256]⟩ : Shape).Idx → EReal) (a3 : (⟨2, ![256, 64]⟩ : Shape).Idx → EReal) (a4 : (⟨1, ![1]⟩ : Shape).Idx → EReal) :
    (⟨2, ![32768, 64]⟩ : Shape).Idx → EReal := fun i =>
  gateNormalisedRows (fun k => a0 (ix2 (⟨(i 0).val, (i 0).isLt⟩ : Fin 32768) k)) (fun j k => a1 (ix2 j k)) (fun j => a2 (ix1 j))
    (fun j e => a3 (ix2 j e)) (a4 (ix1 (0 : Fin 1))) (⟨(i 1).val, (i 1).isLt⟩ : Fin 64)

/-- On real data the two whole-array results are one array. -/
theorem array_eq (a0 : (⟨2, ![32768, 768]⟩ : Shape).Idx → EReal) (a1 : (⟨2, ![256, 768]⟩ : Shape).Idx → EReal)
    (a2 : (⟨1, ![256]⟩ : Shape).Idx → EReal) (a3 : (⟨2, ![256, 64]⟩ : Shape).Idx → EReal) (a4 : (⟨1, ![1]⟩ : Shape).Idx → EReal)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) :
    arrayScaledColumns a0 a1 a2 a3 a4 = arrayNormalisedRows a0 a1 a2 a3 a4 :=
  funext fun i => gate_eq _ _ _ _ _ _ (fun k => h0 _) (fun j k => h1 _) (fun j => h2 _) (fun j e => h3 _) (h4 _)

end Cert.CosineGate

end
-- ==== Proof.Finite.lean ====
/-
  Finite inputs are real numbers. The precondition says, of each of the five argument arrays, that every entry's absolute
  value is below +∞ (an `all` over the array of the comparison `|a i| < +∞`, the five conjoined). On the extended reals
  `|x| = max x (-x)` is `+∞` at both infinities, so an entry that passes the comparison is (the coercion of) a real number.
-/
import proofs.«157020_g85023172591907_cont_9to1c4b_591_34_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.CosineGate.Finite

open Idealize.ShloMosaic Cert.Pre_finite_inputs

instance : Subsingleton S_.Idx := ⟨fun _ _ => funext fun d => d.elim0⟩

/-- The pattern of +∞ denotes the top of the extended reals. -/
theorem inf_eq : Ideal.ofBits .f32 0x7F800000#32 = (⊤ : EReal) := by
  simp [Ideal.ofBits, Ideal.ieee]

/-- An extended real whose absolute value is strictly below +∞ is a real number. -/
theorem real_of_abs_lt_top (x : EReal) (h : Ideal.cmp .olt (max x (-x)) (Ideal.ofBits .f32 0x7F800000#32) = 1#1) :
    ∃ r : ℝ, x = (r : EReal) := by
  rw [inf_eq] at h
  induction x using EReal.rec with
  | bot => simp [Ideal.cmp] at h
  | top => simp [Ideal.cmp] at h
  | coe r => exact ⟨r, rfl⟩

/-- One entry of an array that passes the comparison against the splat of +∞. -/
theorem real_of_entry {s : Shape} (a : FVec Ideal s .f32) (bc : S_.BroadcastsInDim s (![] : Fin 0 → Fin s.rank)) (i : s.Idx)
    (h : cmpf .olt (Host.absf a) (broadcastInDim s ![] bc (constant (F := Ideal) S_ .f32 0x7F800000#32)) i = 1#1) :
    ∃ r : ℝ, a i = (r : EReal) :=
  real_of_abs_lt_top (a i) h

/-- Under the precondition every entry of every argument array is a real number. -/
theorem reals_of_pre (a0 : FVec Ideal S32768x768 .f32) (a1 : FVec Ideal S256x768 .f32) (a2 : FVec Ideal S256 .f32)
    (a3 : FVec Ideal S256x64 .f32) (a4 : FVec Ideal S1 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  change IntOp.andi (IntOp.andi (IntOp.andi (IntOp.andi _ _) _) _) _ = 1#1 at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_entry a0 _ i (Host.reduce_andi_all _ _ _ _ _ e0 i),
    fun i => real_of_entry a1 _ i (Host.reduce_andi_all _ _ _ _ _ e1 i),
    fun i => real_of_entry a2 _ i (Host.reduce_andi_all _ _ _ _ _ e2 i),
    fun i => real_of_entry a3 _ i (Host.reduce_andi_all _ _ _ _ _ e3 i),
    fun i => real_of_entry a4 _ i (Host.reduce_andi_all _ _ _ _ _ e4 i)⟩

end Cert.CosineGate.Finite

end
-- ==== Proof.Payload.lean ====
/-
  What the gate kernel's body stores, read at one index. The body receives a block of 4096 token rows `x` (4096 × 768), the
  transposed weights `wt` (768 × 256), the bias as a row (1 × 256), the expert matrix `s` (256 × 64) and the temperature as
  a 1 × 1 array, and stores a 64 × 4096 block: expert `e`, token row `r`. Entry (e, r) depends on row `r` of `x` only:
  it is the arrangement `gateScaledColumns` of that row — the projection `x r · wt + b`, multiplied into the expert columns
  normalised and scaled by `exp t`, then divided by the clamped norm of the projected row.
  The matrix products read as sums over the contracted coordinate, the two lane/sublane reductions as sums over one axis, the
  layout operations (keepdims casts, column and row broadcasts, the final transpose) as index maps.
-/
import proofs.«157020_g85023172591907_cont_9to1c4b_591_34_alg».proof.Proof.Gen.KernelIdeal.Skeleton
import proofs.«157020_g85023172591907_cont_9to1c4b_591_34_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.CosineGate.Payload

open Idealize.ShloMosaic Idealize.ShloMosaic.ValueIdx Cert.KernelIdeal Cert.KernelIdeal.Gen Cert.CosineGate

/-! ## Two keepdims layout forms -/

/-- A length-`a` vector cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## The two matrix products at an index -/

theorem lhs1_0 (i : S4096x256.Idx) (q : dot_S4096x768_S768x256_S4096x256_1_0_0_1_n_n.contr.Idx) :
    (dot_S4096x768_S768x256_S4096x256_1_0_0_1_n_n.lhsIdx i q 0).val = (i 0).val := by
  unfold DotDims.lhsIdx
  rw [dif_neg (show ¬(0 : Fin S4096x768.rank) ∈ dot_S4096x768_S768x256_S4096x256_1_0_0_1_n_n.lhsBatch by decide), dif_pos (show (0 : Fin S4096x768.rank) ∈ dot_S4096x768_S768x256_S4096x256_1_0_0_1_n_n.lhsNonContracting by decide)]
  rfl
theorem rhs1_1 (i : S4096x256.Idx) (q : dot_S4096x768_S768x256_S4096x256_1_0_0_1_n_n.contr.Idx) :
    (dot_S4096x768_S768x256_S4096x256_1_0_0_1_n_n.rhsIdx i q 1).val = (i 1).val := by
  unfold DotDims.rhsIdx
  rw [dif_neg (show ¬(1 : Fin S768x256.rank) ∈ dot_S4096x768_S768x256_S4096x256_1_0_0_1_n_n.rhsBatch by decide), dif_pos (show (1 : Fin S768x256.rank) ∈ dot_S4096x768_S768x256_S4096x256_1_0_0_1_n_n.rhsNonContracting by decide)]
  rfl

/-- The first product, rows of the token block against columns of the transposed weights, into a zero accumulator:
    entry (p, j) is `Σ_k l (p, k) · r (k, j)`. -/
theorem matmul1_apply (l : FVec Ideal S4096x768 .bf16) (r : FVec Ideal S768x256 .bf16) (p : Fin 4096) (j : Fin 256) :
    matmul dot_S4096x768_S768x256_S4096x256_1_0_0_1_n_n none l r (constant (F := Ideal) S4096x256 .f32 0x00000000#32) (ix2 p j)
      = ∑ k : Fin 768, l (ix2 p k) * r (ix2 k j) := by
  simp only [matmul]
  rw [Ideal.matmul_constant_zero_apply, ← Equiv.sum_comp (ValueIdx.contrEquiv1 dot_S4096x768_S768x256_S4096x256_1_0_0_1_n_n 768 rfl rfl).symm]
  refine Finset.sum_congr rfl fun k _ => ?_
  have hk := ValueIdx.contrEquiv1_symm_val dot_S4096x768_S768x256_S4096x256_1_0_0_1_n_n 768 rfl rfl k
  have el : dot_S4096x768_S768x256_S4096x256_1_0_0_1_n_n.lhsIdx (ix2 p j) ((ValueIdx.contrEquiv1 dot_S4096x768_S768x256_S4096x256_1_0_0_1_n_n 768 rfl rfl).symm k) = ix2 p k := funext fun a => Fin.ext (by
    match a with
    | ⟨0, _⟩ => exact lhs1_0 _ _
    | ⟨1, _⟩ => exact (dot_S4096x768_S768x256_S4096x256_1_0_0_1_n_n.lhsIdx_val_of_single rfl _ _).trans hk)
  have er : dot_S4096x768_S768x256_S4096x256_1_0_0_1_n_n.rhsIdx (ix2 p j) ((ValueIdx.contrEquiv1 dot_S4096x768_S768x256_S4096x256_1_0_0_1_n_n 768 rfl rfl).symm k) = ix2 k j := funext fun a => Fin.ext (by
    match a with
    | ⟨0, _⟩ => exact (dot_S4096x768_S768x256_S4096x256_1_0_0_1_n_n.rhsIdx_val_of_single rfl _ _).trans hk
    | ⟨1, _⟩ => exact rhs1_1 _ _)
  rw [el, er]

theorem lhs2_0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem rhs2_1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- The second product, projected rows against the scaled expert columns: entry (p, e) is `Σ_j l (p, j) · r (j, e)`. -/
theorem matmul2_apply (l : FVec Ideal S4096x256 .bf16) (r : FVec Ideal S256x64 .bf16) (p : Fin 4096) (e : Fin 64) :
    matmul dot_S4096x256_S256x64_S4096x64_1_0_0_1_n_n none l r (constant (F := Ideal) S4096x64 .f32 0x00000000#32) (ix2 p e)
      = ∑ j : Fin 256, l (ix2 p j) * r (ix2 j e) := by
  simp only [matmul]
  rw [Ideal.matmul_constant_zero_apply, ← Equiv.sum_comp (ValueIdx.contrEquiv1 dot_S4096x256_S256x64_S4096x64_1_0_0_1_n_n 256 rfl rfl).symm]
  refine Finset.sum_congr rfl fun k _ => ?_
  have hk := ValueIdx.contrEquiv1_symm_val dot_S4096x256_S256x64_S4096x64_1_0_0_1_n_n 256 rfl rfl k
  have el : dot_S4096x256_S256x64_S4096x64_1_0_0_1_n_n.lhsIdx (ix2 p e) ((ValueIdx.contrEquiv1 dot_S4096x256_S256x64_S4096x64_1_0_0_1_n_n 256 rfl rfl).symm k) = ix2 p k := funext fun a => Fin.ext (by
    match a with
    | ⟨0, _⟩ => exact lhs2_0 _ _
    | ⟨1, _⟩ => exact (dot_S4096x256_S256x64_S4096x64_1_0_0_1_n_n.lhsIdx_val_of_single rfl _ _).trans hk)
  have er : dot_S4096x256_S256x64_S4096x64_1_0_0_1_n_n.rhsIdx (ix2 p e) ((ValueIdx.contrEquiv1 dot_S4096x256_S256x64_S4096x64_1_0_0_1_n_n 256 rfl rfl).symm k) = ix2 k e := funext fun a => Fin.ext (by
    match a with
    | ⟨0, _⟩ => exact (dot_S4096x256_S256x64_S4096x64_1_0_0_1_n_n.rhsIdx_val_of_single rfl _ _).trans hk
    | ⟨1, _⟩ => exact rhs2_1 _ _)
  rw [el, er]

/-! ## The two one-axis sums -/

/-- A sum along the second axis of a 4096 × 256 array: at row `p`, `Σ_j y (p, j)`. -/
theorem sumAlongRow_apply (y : FVec Ideal S4096x256 .f32) (h : S4096x256.Reduces [1] S4096) (hφ : FKind.Formats .f32)
    (hacc : (0x00000000#32 : BitVec 32) = FKind.add.neutral .f32 hφ) (p : Fin 4096) :
    multiReduction .add [1] S4096 y 0x00000000#32 h hφ hacc (ix1 p) = ∑ j : Fin 256, y (ix2 p j) :=
  (Ideal.multiReduction_add_single y _ h hφ hacc (ix1 p)).trans
    (Finset.sum_congr rfl fun k _ => congrArg y (funext fun a => Fin.ext (by
      match a with
      | ⟨0, _⟩ => rfl
      | ⟨1, _⟩ => rfl)))

/-- A sum along the first axis of a 256 × 64 array: at column `e`, `Σ_j y (j, e)`. -/
theorem sumAlongColumn_apply (y : FVec Ideal S256x64 .f32) (h : S256x64.Reduces [0] S64) (hφ : FKind.Formats .f32)
    (hacc : (0x00000000#32 : BitVec 32) = FKind.add.neutral .f32 hφ) (e : Fin 64) :
    multiReduction .add [0] S64 y 0x00000000#32 h hφ hacc (ix1 e) = ∑ j : Fin 256, y (ix2 j e) :=
  (Ideal.multiReduction_add_single y _ h hφ hacc (ix1 e)).trans
    (Finset.sum_congr rfl fun k _ => congrArg y (funext fun a => Fin.ext (by
      match a with
      | ⟨0, _⟩ => rfl
      | ⟨1, _⟩ => rfl)))

/-! ## The body's three intermediate arrays -/

section
variable (v0 : FVec Ideal S4096x768 .f32) (v2 : FVec Ideal S768x256 .bf16) (v5 : FVec Ideal S1x256 .f32)
  (v19 : FVec Ideal S256x64 .f32) (v28 : FVec Ideal S1x1 .f32)

/-- The projected block: token rows times transposed weights, plus the bias row on every row. -/
def projected : FVec Ideal S4096x256 .f32 :=
  addf (matmul dot_S4096x768_S768x256_S4096x256_1_0_0_1_n_n none (truncf .bf16 v0 bitsLt_bf16_f32)
      (shapeCast S768x256 v2 shapeCasts_S768x256_S768x256) (constant S4096x256 .f32 0x00000000#32))
    (broadcastTo S4096x256 (shapeCast S1x256 v5 shapeCasts_S1x256_S1x256) broadcasts_S1x256_S4096x256)

/-- The reciprocal clamped norm of each projected row, as a column. -/
def inverseRowNorm (P : FVec Ideal S4096x256 .f32) : FVec Ideal S4096x1 .f32 :=
  divf (broadcast S4096x1 (Scalar.ofBits .f32 0x3F800000#32))
    (maximumf (sqrt (shapeCast S4096x1 (multiReduction .add [1] S4096 (mulf P P) 0x00000000#32 reduces_S4096x256_S4096 (.inl rfl) rfl) shapeCasts_S4096_S4096x1))
      (broadcast S4096x1 (Scalar.ofBits .f32 0x2B8CBCCC#32)))

/-- The expert matrix with each column divided by its clamped norm and scaled by `exp` of the temperature. -/
def scaledColumns : FVec Ideal S256x64 .f32 :=
  mulf (divf v19 (broadcastTo S256x64 (maximumf (sqrt (shapeCast S1x64 (multiReduction .add [0] S64 (mulf v19 v19) 0x00000000#32 reduces_S256x64_S64 (.inl rfl) rfl) shapeCasts_S64_S1x64))
      (broadcast S1x64 (Scalar.ofBits .f32 0x2B8CBCCC#32))) broadcasts_S1x64_S256x64))
    (broadcast S256x64 (Scalar.exp (extractAt ![0, 0] v28 inpos_S1x1_p0_0)))

/-- The body's stored value is the transpose of (projected · scaled columns) times the reciprocal row norms. -/
theorem pay_form : k0_pay1 (F := Ideal) v0 v2 v5 v19 v28
    = transpose S64x4096 [1, 0] (mulf (matmul dot_S4096x256_S256x64_S4096x64_1_0_0_1_n_n none
          (truncf .bf16 (projected v0 v2 v5) bitsLt_bf16_f32) (truncf .bf16 (scaledColumns v19 v28) bitsLt_bf16_f32)
          (constant S4096x64 .f32 0x00000000#32))
        (broadcastTo S4096x64 (inverseRowNorm (projected v0 v2 v5)) broadcasts_S4096x1_S4096x64)) transposes_S4096x64_p1_0_S64x4096 := rfl

/-- Entry (p, j) of the projected block is the projection of row `p`. -/
theorem projected_apply (p : Fin 4096) (j : Fin 256) :
    projected v0 v2 v5 (ix2 p j)
      = proj (fun k => v0 (ix2 p k)) (fun j k => v2 (ix2 k j)) (fun j => v5 (ix2 (0 : Fin 1) j)) j := by
  unfold projected
  rw [addf_apply, shapeCast_self, shapeCast_self, broadcastTo_1b_ab_apply, matmul1_apply]
  rfl

/-- Row `p` of the reciprocal-norm column is `1 / max (√(Σ_j P (p, j)²)) ε`. -/
theorem inverseRowNorm_apply (P : FVec Ideal S4096x256 .f32) (p : Fin 4096) :
    inverseRowNorm P (ix2 p (0 : Fin 1)) = Ideal.div (Ideal.ofBits .f32 0x3F800000#32) (nrm fun j => P (ix2 p j)) := by
  have hs : multiReduction .add [1] S4096 (mulf P P) 0x00000000#32 reduces_S4096x256_S4096 (.inl rfl) rfl (ix1 p)
      = ∑ j : Fin 256, P (ix2 p j) * P (ix2 p j) := sumAlongRow_apply (mulf P P) _ _ _ p
  show Ideal.div (Ideal.ofBits .f32 0x3F800000#32)
      (max (Ideal.sqrt (shapeCast S4096x1 (multiReduction .add [1] S4096 (mulf P P) 0x00000000#32 reduces_S4096x256_S4096 (.inl rfl) rfl) shapeCasts_S4096_S4096x1 (ix2 p (0 : Fin 1))))
        (Ideal.ofBits .f32 0x2B8CBCCC#32)) = _
  rw [shapeCast_a_a1_apply, hs]
  rfl

/-- Entry (j, e) of the scaled expert matrix. -/
theorem scaledColumns_apply (j : Fin 256) (e : Fin 64) :
    scaledColumns v19 v28 (ix2 j e)
      = Ideal.div (v19 (ix2 j e)) (nrm fun j' => v19 (ix2 j' e)) * Ideal.exp (v28 (ix2 (0 : Fin 1) (0 : Fin 1))) := by
  have hs : multiReduction .add [0] S64 (mulf v19 v19) 0x00000000#32 reduces_S256x64_S64 (.inl rfl) rfl (ix1 e)
      = ∑ j' : Fin 256, v19 (ix2 j' e) * v19 (ix2 j' e) := sumAlongColumn_apply (mulf v19 v19) _ _ _ e
  have hx : extractAt ![0, 0] v28 inpos_S1x1_p0_0 = v28 (ix2 (0 : Fin 1) (0 : Fin 1)) :=
    congrArg v28 (funext fun a => Fin.ext (by
      match a with
      | ⟨0, _⟩ => rfl
      | ⟨1, _⟩ => rfl))
  show Ideal.div (v19 (ix2 j e))
      (broadcastTo S256x64 (maximumf (sqrt (shapeCast S1x64 (multiReduction .add [0] S64 (mulf v19 v19) 0x00000000#32 reduces_S256x64_S64 (.inl rfl) rfl) shapeCasts_S64_S1x64))
        (broadcast S1x64 (Scalar.ofBits .f32 0x2B8CBCCC#32))) broadcasts_S1x64_S256x64 (ix2 j e))
      * Ideal.exp (extractAt ![0, 0] v28 inpos_S1x1_p0_0) = _
  rw [broadcastTo_1b_ab_apply, hx]
  show Ideal.div (v19 (ix2 j e))
      (max (Ideal.sqrt (shapeCast S1x64 (multiReduction .add [0] S64 (mulf v19 v19) 0x00000000#32 reduces_S256x64_S64 (.inl rfl) rfl) shapeCasts_S64_S1x64 (ix2 (0 : Fin 1) e)))
        (Ideal.ofBits .f32 0x2B8CBCCC#32)) * _ = _
  rw [shapeCast_a_1a_apply, hs]
  rfl

/-- THE BODY AT AN INDEX: expert `e`, row `p` of the stored block is `gateScaledColumns` of row `p` of the token block. -/
theorem pay_apply (e : Fin 64) (p : Fin 4096) :
    k0_pay1 (F := Ideal) v0 v2 v5 v19 v28 (ix2 e p)
      = gateScaledColumns (fun k => v0 (ix2 p k)) (fun j k => v2 (ix2 k j)) (fun j => v5 (ix2 (0 : Fin 1) j))
          (fun j e => v19 (ix2 j e)) (v28 (ix2 (0 : Fin 1) (0 : Fin 1))) e := by
  rw [pay_form, transpose_ix2_apply, mulf_apply, matmul2_apply, broadcastTo_a1_ab_apply, inverseRowNorm_apply]
  unfold gateScaledColumns
  have hP : (fun j => projected v0 v2 v5 (ix2 p j))
      = proj (fun k => v0 (ix2 p k)) (fun j k => v2 (ix2 k j)) (fun j => v5 (ix2 (0 : Fin 1) j)) :=
    funext fun j => projected_apply v0 v2 v5 p j
  rw [hP]
  refine congrArg (· * _) (Finset.sum_congr rfl fun j _ => ?_)
  rw [truncf_apply, truncf_apply, projected_apply, scaledColumns_apply]

end

end Cert.CosineGate.Payload

end
-- ==== Proof.KernelValue.lean ====
/-
  The gate kernel's result array as one function of the argument arrays. The grid has 8 points; point `t` reads token rows
  4096·t … 4096·t + 4095 (all 768 columns), the whole of the other four operands, and writes columns 4096·t … 4096·t + 4095
  of the 64 × 32768 output (all 64 rows). What point `t` writes is, entry by entry, `gateScaledColumns` of the token row the
  output column names; the eight column blocks tile the output, so after the run the output array is that function
  everywhere. Around the launch the host transposes and narrows the weights, reshapes the bias to a row and the temperature to
  1 × 1 before it, and transposes the output to 32768 × 64 after it.
-/
import proofs.«157020_g85023172591907_cont_9to1c4b_591_34_alg».proof.Proof.Gen.KernelIdeal.Frame
import proofs.«157020_g85023172591907_cont_9to1c4b_591_34_alg».proof.Proof.Payload
import Idealize.ShloMosaic.Lib.Pipeline.Value
import Idealize.ShloMosaic.Lib.StableHlo.Run
import Idealize.ShloMosaic.Lib.ValueIdx
import Idealize.ShloMosaic.Lib.ValueLayout

noncomputable section

namespace Cert.CosineGate.KernelValue

open Cert.KernelIdeal Cert.KernelIdeal.Gen Idealize.ShloMosaic Idealize.ShloMosaic.TcCoe Idealize.SL.Sem
open Idealize.ShloMosaic.ValueIdx Cert.CosineGate
open Idealize.ShloMosaic.Pipeline (Dat)

variable (m : (ℓ : Loc nD τ sig) → Buf (Elt Ideal) ℓ) (ρ : Dev nD → PrngReg)

/-! ## The output array as a function of the staged arrays -/

/-- Entry (e, r) of the 64 × 32768 output: the gate of token row `r` at expert `e`, over the arrays the launch stages
    (the weights already transposed, the bias a row, the temperature 1 × 1). -/
def gateArray (A0 : S32768x768.Idx → EReal) (A1 : S768x256.Idx → EReal) (A2 : S1x256.Idx → EReal)
    (A3 : S256x64.Idx → EReal) (A4 : S1x1.Idx → EReal) : S64x32768.Idx → EReal := fun i =>
  gateScaledColumns (fun k => A0 (ix2 (⟨(i 1).val, (i 1).isLt⟩ : Fin 32768) k)) (fun j k => A1 (ix2 k j))
    (fun j => A2 (ix2 (0 : Fin 1) j)) (fun j e => A3 (ix2 j e)) (A4 (ix2 (0 : Fin 1) (0 : Fin 1))) (⟨(i 0).val, (i 0).isLt⟩ : Fin 64)

/-- One block of the output: if the token block `x0` is rows `4096·tv …` of `A0` and the other blocks are the whole
    arrays, the body's stored value at `y` is `gateArray` at row `y 0`, column `4096·tv + y 1`. -/
theorem block_eq (A0 : S32768x768.Idx → EReal) (A1 : S768x256.Idx → EReal) (A2 : S1x256.Idx → EReal)
    (A3 : S256x64.Idx → EReal) (A4 : S1x1.Idx → EReal)
    (x0 : FVec Ideal S4096x768 .f32) (x1 : FVec Ideal S768x256 .bf16) (x2 : FVec Ideal S1x256 .f32)
    (x3 : FVec Ideal S256x64 .f32) (x4 : FVec Ideal S1x1 .f32) (tv : ℕ) (htv : tv < 8)
    (h0 : ∀ (p : Fin 4096) (k : Fin 768), x0 (ix2 p k) = A0 (ix2 (⟨tv * 4096 + p.val, by have := p.isLt; omega⟩ : Fin 32768) k))
    (h1 : x1 = A1) (h2 : x2 = A2) (h3 : x3 = A3) (h4 : x4 = A4) (y : S64x4096.Idx) :
    k0_pay1 (F := Ideal) x0 x1 x2 x3 x4 y
      = gateArray A0 A1 A2 A3 A4 (ix2 (⟨(y 0).val, (y 0).isLt⟩ : Fin 64) (⟨tv * 4096 + (y 1).val, by have hy1 : (y 1).val < 4096 := (y 1).isLt; omega⟩ : Fin 32768)) := by
  subst h1 h2 h3 h4
  obtain ⟨e, p, rfl⟩ : ∃ (e : Fin 64) (p : Fin 4096), y = ix2 e p := ⟨y 0, y 1, eq_ix2 y⟩
  rw [Payload.pay_apply]
  have hrow : (fun k => x0 (ix2 p k)) = fun k => A0 (ix2 (⟨tv * 4096 + p.val, by have := p.isLt; omega⟩ : Fin 32768) k) :=
    funext fun k => h0 p k
  rw [hrow]
  rfl

/-! ## The grid's index maps -/

theorem hz : (![0, 0] : Fin 2 → Nat) = fun _ => 0 := funext fun a => by fin_cases a <;> rfl

/-- The printed index maps over the eight points: the token window moves down the rows with the point, the output window
    along the columns, the other four windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-! ## What each point writes back, the cover, the array after the run -/

/-- WHAT POINT `t` WRITES BACK is block `t` of `gateArray` of the arrays as the launch finds them. -/
theorem flushed_eq (c : Dev nD) (t : Fin cfg0.N) :
    (dats m 0 c).flushed 5 t = ((cfg0.win 5).blk t).view.read (Elt Ideal)
      (gateArray (V m c main_arg0) (V m c main_v1) (V m c main_v2) (V m c main_arg3) (V m c main_v3)) := by
  show (cfg0.win 5).cut (grid0.coords t) ((dats m 0 c).after 5 t) = _
  rw [after0_5]
  unfold out0_5
  rw [View.canon_unit_zero hz]
  simp only [View.ld_unit_zero (S := S4096x768) hz, View.ld_unit_zero (S := S768x256) hz, View.ld_unit_zero (S := S1x256) hz,
    View.ld_unit_zero (S := S256x64) hz, View.ld_unit_zero (S := S1x1) hz]
  obtain ⟨f00, f01, f10, f11, f20, f21, f30, f31, f40, f41, f50, f51⟩ := idx_facts t
  have htN : t.val < 8 := by have htl : t.val < grid0.N := t.isLt; have hN : grid0.N = 8 := N_0; omega
  have h0 : ∀ (p : Fin 4096) (k : Fin 768), iblk m c 0 t (ix2 p k)
      = V m c main_arg0 (ix2 (⟨t.val * 4096 + p.val, by have := p.isLt; omega⟩ : Fin 32768) k) := fun p k => by
    show V m c main_arg0 (((cfg0.win 0).blk t).view.emb (ix2 p k)) = _
    refine congrArg (V m c main_arg0) (funext fun a => Fin.ext ?_)
    match a with
    | ⟨0, _⟩ => show win0_0.index t (0 : Fin 2) * 4096 + 1 * p.val = t.val * 4096 + p.val; omega
    | ⟨1, _⟩ => show win0_0.index t (1 : Fin 2) * 768 + 1 * k.val = k.val; omega
  have h1 : iblk m c 1 t = V m c main_v1 := funext fun j => by
    show V m c main_v1 (((cfg0.win 1).blk t).view.emb j) = V m c main_v1 j
    refine congrArg (V m c main_v1) (funext fun a => Fin.ext ?_)
    match a with
    | ⟨0, _⟩ => show win0_1.index t (0 : Fin 2) * 768 + 1 * (j 0).val = (j 0).val; omega
    | ⟨1, _⟩ => show win0_1.index t (1 : Fin 2) * 256 + 1 * (j 1).val = (j 1).val; omega
  have h2 : iblk m c 2 t = V m c main_v2 := funext fun j => by
    show V m c main_v2 (((cfg0.win 2).blk t).view.emb j) = V m c main_v2 j
    refine congrArg (V m c main_v2) (funext fun a => Fin.ext ?_)
    match a with
    | ⟨0, _⟩ => show win0_2.index t (0 : Fin 2) * 1 + 1 * (j 0).val = (j 0).val; omega
    | ⟨1, _⟩ => show win0_2.index t (1 : Fin 2) * 256 + 1 * (j 1).val = (j 1).val; omega
  have h3 : iblk m c 3 t = V m c main_arg3 := funext fun j => by
    show V m c main_arg3 (((cfg0.win 3).blk t).view.emb j) = V m c main_arg3 j
    refine congrArg (V m c main_arg3) (funext fun a => Fin.ext ?_)
    match a with
    | ⟨0, _⟩ => show win0_3.index t (0 : Fin 2) * 256 + 1 * (j 0).val = (j 0).val; omega
    | ⟨1, _⟩ => show win0_3.index t (1 : Fin 2) * 64 + 1 * (j 1).val = (j 1).val; omega
  have h4 : iblk m c 4 t = V m c main_v3 := funext fun j => by
    show V m c main_v3 (((cfg0.win 4).blk t).view.emb j) = V m c main_v3 j
    refine congrArg (V m c main_v3) (funext fun a => Fin.ext ?_)
    match a with
    | ⟨0, _⟩ => show win0_4.index t (0 : Fin 2) * 1 + 1 * (j 0).val = (j 0).val; omega
    | ⟨1, _⟩ => show win0_4.index t (1 : Fin 2) * 1 + 1 * (j 1).val = (j 1).val; omega
  funext y
  show k0_pay1 (F := Ideal) (iblk m c 0 t) (iblk m c 1 t) (iblk m c 2 t) (iblk m c 3 t) (iblk m c 4 t) y
    = gateArray (V m c main_arg0) (V m c main_v1) (V m c main_v2) (V m c main_arg3) (V m c main_v3) (((cfg0.win 5).blk t).view.emb y)
  have hemb : ((cfg0.win 5).blk t).view.emb y
      = ix2 (⟨(y 0).val, (y 0).isLt⟩ : Fin 64) (⟨t.val * 4096 + (y 1).val, by have hy1 : (y 1).val < 4096 := (y 1).isLt; omega⟩ : Fin 32768) := by
    funext a; apply Fin.ext
    match a with
    | ⟨0, _⟩ => show win0_5.index t (0 : Fin 2) * 64 + 1 * (y 0).val = (y 0).val; omega
    | ⟨1, _⟩ => show win0_5.index t (1 : Fin 2) * 4096 + 1 * (y 1).val = t.val * 4096 + (y 1).val; omega
  rw [hemb]
  exact block_eq (V m c main_arg0) (V m c main_v1) (V m c main_v2) (V m c main_arg3) (V m c main_v3)
    (iblk m c 0 t) (iblk m c 1 t) (iblk m c 2 t) (iblk m c 3 t) (iblk m c 4 t) t.val htN h0 h1 h2 h3 h4 y

/-- An index of the output array is in point `t`'s block iff each coordinate is in the block's range on its axis. -/
theorem mem_blk (t : Fin cfg0.N) (i : S64x32768.Idx) :
    i ∈ ((cfg0.win 5).blk t).view.set ↔ ∀ a : Fin 2, win0_5.index t a * S64x4096.size a ≤ (i a).val ∧ (i a).val < win0_5.index t a * S64x4096.size a + S64x4096.size a := by
  show i ∈ ((View.whole main_v4).slice (win0_5.rect t)).set ↔ _
  rw [View.set_slice_whole, Rect.mem_set_unit]
  exact Iff.rfl

/-- Every output index lies in the block of the point that owns its column: column `q` belongs to point `q / 4096`. -/
theorem cover (i : S64x32768.Idx) :
    ∃ t : Fin cfg0.N, (cfg0.win 5).flush t = true ∧ i ∈ ((cfg0.win 5).blk t).view.set := by
  have hi0 : (i 0).val < 64 := (i 0).isLt
  have hi1 : (i 1).val < 32768 := (i 1).isLt
  have hN : grid0.N = 8 := N_0
  obtain ⟨t, ht⟩ : ∃ t : Fin cfg0.N, t.val = (i 1).val / 4096 :=
    ⟨⟨(i 1).val / 4096, by show (i 1).val / 4096 < grid0.N; omega⟩, rfl⟩
  obtain ⟨f00, f01, f10, f11, f20, f21, f30, f31, f40, f41, f50, f51⟩ := idx_facts t
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 4096 ≤ (i 1).val ∧ (i 1).val < win0_5.index t (1 : Fin 2) * 4096 + 4096; omega

/-- THE OUTPUT ARRAY after the run is `gateArray` of the staged arrays. -/
theorem final (c : Dev nD) : (dats m 0 c).arrAt 5 cfg0.N
    = gateArray (V m c main_arg0) (V m c main_v1) (V m c main_v2) (V m c main_arg3) (V m c main_v3) :=
  (dats m 0 c).arrAt_eq_of_cover 5 _ (fun t _ => flushed_eq m c t) cover

end Cert.CosineGate.KernelValue

end
-- ==== Proof.KernelRun.lean ====
/-
  The gate kernel's whole run, read: before the launch the host transposes the weights (and narrows them, which changes no
  value here), reshapes the bias to a row and the temperature to a 1 × 1 array; the launch leaves the 64 × 32768 array of
  KernelValue.lean; after it the host transposes that array. So the program's result, entry (r, e), is the gate of token row
  `r` at expert `e` over the ARGUMENT arrays, in the arrangement with the expert columns scaled first — and the arguments
  end as they were launched.
-/
import proofs.«157020_g85023172591907_cont_9to1c4b_591_34_alg».proof.Proof.KernelValue
import proofs.«157020_g85023172591907_cont_9to1c4b_591_34_alg».proof.Proof.Arrays

noncomputable section

namespace Cert.CosineGate.KernelRun

open Cert.KernelIdeal Cert.KernelIdeal.Gen Idealize.ShloMosaic Idealize.ShloMosaic.TcCoe Idealize.SL.Sem
open Idealize.ShloMosaic.ValueIdx Cert.CosineGate
open Idealize.ShloMosaic.Pipeline (Dat)

variable (m : (ℓ : Loc nD τ sig) → Buf (Elt Ideal) ℓ) (ρ : Dev nD → PrngReg)

/-! ## The arrays the host prepares before the launch -/

/-- The staged weights are the weight argument transposed (the narrowing to bf16 is the identity on values). -/
theorem staged_weights (c : Dev nD) : (V m c main_v1 : S768x256.Idx → EReal)
    = truncf (F := Ideal) .bf16 (transpose S768x256 [1, 0] (m ((c : Thread nD τ).loc main_arg1)) transposes_S256x768_S768x256_1_0) bitsLt_bf16_f32 := by
  show StableHlo.after hostOps0 (fun b => m (c, b)) (Proc.devRef .tc main_v1) = _
  after_results <;> rfl

/-- The staged bias is the bias argument as one row. -/
theorem staged_bias (c : Dev nD) : (V m c main_v2 : S1x256.Idx → EReal)
    = shapeCast S1x256 (m ((c : Thread nD τ).loc main_arg2)) shapeCasts_S256_S1x256 := by
  show StableHlo.after hostOps0 (fun b => m (c, b)) (Proc.devRef .tc main_v2) = _
  after_results <;> rfl

/-- The staged temperature is the temperature argument as a 1 × 1 array. -/
theorem staged_temperature (c : Dev nD) : (V m c main_v3 : S1x1.Idx → EReal)
    = shapeCast S1x1 (m ((c : Thread nD τ).loc main_arg4)) shapeCasts_S1_S1x1 := by
  show StableHlo.after hostOps0 (fun b => m (c, b)) (Proc.devRef .tc main_v3) = _
  after_results <;> rfl

theorem staged_weights_apply (c : Dev nD) (k : Fin 768) (j : Fin 256) :
    V m c main_v1 (ix2 k j) = m ((c : Thread nD τ).loc main_arg1) (ix2 j k) := by
  rw [staged_weights]
  exact transpose_ix2_apply _ _ k j

theorem staged_bias_apply (c : Dev nD) (j : Fin 256) :
    V m c main_v2 (ix2 (0 : Fin 1) j) = m ((c : Thread nD τ).loc main_arg2) (ix1 j) := by
  rw [staged_bias]
  exact shapeCast_a_1a_apply _ _ (0 : Fin 1) j

theorem staged_temperature_apply (c : Dev nD) :
    V m c main_v3 (ix2 (0 : Fin 1) (0 : Fin 1)) = m ((c : Thread nD τ).loc main_arg4) (ix1 (0 : Fin 1)) := by
  rw [staged_temperature]
  exact shapeCast_a_1a_apply _ _ (0 : Fin 1) (0 : Fin 1)

/-! ## The transpose after the launch -/

/-- The program's result is the transpose of the launch's output array. -/
theorem result_tail (c : Dev nD) : (Pipeline.afterTail₀ cfgs (dats m) 0 (V0 m) [hostOps1] c main_v5 : S32768x64.Idx → EReal)
    = transpose S32768x64 [1, 0] ((dats m 0 c).arrAt 5 cfg0.N) transposes_S64x32768_S32768x64_1_0 := by
  unfold Pipeline.afterTail₀
  show StableHlo.after hostOps1 _ (Proc.devRef .tc main_v5) = _
  after_results
  exact congrArg (fun z => transpose S32768x64 [1, 0] z transposes_S64x32768_S32768x64_1_0)
    (Pipeline.withArrays_arr spec0 launch0.win.arr_inj c _ _ 5)

/-- THE RESULT over the argument arrays: the whole-array gate with the expert columns scaled first. -/
theorem result_eq (c : Dev nD) : (Pipeline.afterTail₀ cfgs (dats m) 0 (V0 m) [hostOps1] c main_v5 : S32768x64.Idx → EReal)
    = arrayScaledColumns (m ((c : Thread nD τ).loc main_arg0)) (m ((c : Thread nD τ).loc main_arg1)) (m ((c : Thread nD τ).loc main_arg2))
        (m ((c : Thread nD τ).loc main_arg3)) (m ((c : Thread nD τ).loc main_arg4)) := by
  rw [result_tail, KernelValue.final]
  funext i
  obtain ⟨r, e, rfl⟩ : ∃ (r : Fin 32768) (e : Fin 64), i = ix2 r e := ⟨i 0, i 1, eq_ix2 i⟩
  rw [transpose_ix2_apply]
  unfold KernelValue.gateArray arrayScaledColumns
  show gateScaledColumns (fun k => V m c main_arg0 (ix2 r k)) (fun j k => V m c main_v1 (ix2 k j)) (fun j => V m c main_v2 (ix2 (0 : Fin 1) j))
      (fun j e => V m c main_arg3 (ix2 j e)) (V m c main_v3 (ix2 (0 : Fin 1) (0 : Fin 1))) e
    = gateScaledColumns (fun k => m ((c : Thread nD τ).loc main_arg0) (ix2 r k)) (fun j k => m ((c : Thread nD τ).loc main_arg1) (ix2 j k))
      (fun j => m ((c : Thread nD τ).loc main_arg2) (ix1 j)) (fun j e => m ((c : Thread nD τ).loc main_arg3) (ix2 j e))
      (m ((c : Thread nD τ).loc main_arg4) (ix1 (0 : Fin 1))) e
  rw [V_main_arg0, V_main_arg3, staged_temperature_apply]
  have hw : (fun (j : Fin 256) (k : Fin 768) => V m c main_v1 (ix2 k j)) = fun j k => m ((c : Thread nD τ).loc main_arg1) (ix2 j k) :=
    funext fun j => funext fun k => staged_weights_apply m c k j
  have hb : (fun (j : Fin 256) => V m c main_v2 (ix2 (0 : Fin 1) j)) = fun j => m ((c : Thread nD τ).loc main_arg2) (ix1 j) :=
    funext fun j => staged_bias_apply m c j
  rw [hw, hb]

/-! ## The run -/

/-- Every weakly fair execution of the program terminates with its result at the whole-array gate of the arguments and the
    arguments unchanged. -/
theorem run : θ_run defs (onTc (τ := τ) (main (F := Ideal))) ⟨m, fun _ => 0, ρ⟩ fun r => ∀ c : Dev nD,
      r.2.mem ((c.tc : Thread nD τ).loc main_v5)
        = arrayScaledColumns (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.CosineGate.KernelRun

end
-- ==== Proof.RefValue.lean ====
/-
  The reference's result read at one index. The reference projects every token row, divides each projected row by its clamped
  norm, divides each expert column by its clamped norm, multiplies the two normalised matrices and scales by `exp` of the
  temperature. Entry (r, e) of its result is the arrangement `gateNormalisedRows` of token row `r`: the generated
  read-at-an-index lemmas give each stage at an index from the stage before, and the composed index maps are the evident
  coordinates (row `r`, column `e`, the contracted coordinate, a unit coordinate on each kept axis).
-/
import proofs.«157020_g85023172591907_cont_9to1c4b_591_34_alg».proof.Proof.Gen.ReferenceIdeal.Read
import proofs.«157020_g85023172591907_cont_9to1c4b_591_34_alg».proof.Proof.Spec
import Idealize.ShloMosaic.Lib.ValueIdx
import Idealize.ShloMosaic.PureOps.Ideal.Laws

noncomputable section

namespace Cert.CosineGate.RefValue

open Idealize.ShloMosaic Idealize.ShloMosaic.ValueIdx Cert.ReferenceIdeal Cert.ReferenceIdeal.Gen Cert.ReferenceIdeal.Read Cert.CosineGate

/-! ## The composed index maps, in coordinates -/

theorem e_l15 (r : Fin 32768) (e : Fin 64) (k : Fin 256) : lidx_main_v15 (ix2 r e) k = ix2 r k :=
  funext fun a => Fin.ext (by match a with | ⟨0, _⟩ => rfl | ⟨1, _⟩ => rfl)
theorem e_r15 (r : Fin 32768) (e : Fin 64) (k : Fin 256) : ridx_main_v15 (ix2 r e) k = ix2 k e :=
  funext fun a => Fin.ext (by match a with | ⟨0, _⟩ => rfl | ⟨1, _⟩ => rfl)
theorem e_18 (r : Fin 32768) (e : Fin 64) : idx_main_v18 (ix2 r e) = ix2 (0 : Fin 1) (0 : Fin 1) :=
  funext fun a => Fin.ext (by match a with | ⟨0, _⟩ => rfl | ⟨1, _⟩ => rfl)
theorem e_17 : idx_main_v17 (ix2 (0 : Fin 1) (0 : Fin 1)) = ix1 (0 : Fin 1) :=
  funext fun a => Fin.ext (by match a with | ⟨0, _⟩ => rfl)
theorem e_8 (r : Fin 32768) (j : Fin 256) : idx_main_v8 (ix2 r j) = ix2 r (0 : Fin 1) :=
  funext fun a => Fin.ext (by match a with | ⟨0, _⟩ => rfl | ⟨1, _⟩ => rfl)
theorem e_c0v2 (r : Fin 32768) : idx_main_call0_v2 (ix2 r (0 : Fin 1)) = ix1 r :=
  funext fun a => Fin.ext (by match a with | ⟨0, _⟩ => rfl)
theorem e_c0v1 (r : Fin 32768) (k : Fin 256) : idx_main_call0_v1 (ix1 r) k = ix2 r k :=
  funext fun a => Fin.ext (by match a with | ⟨0, _⟩ => rfl | ⟨1, _⟩ => rfl)
theorem e_13 (j : Fin 256) (e : Fin 64) : idx_main_v13 (ix2 j e) = ix2 (0 : Fin 1) e :=
  funext fun a => Fin.ext (by match a with | ⟨0, _⟩ => rfl | ⟨1, _⟩ => rfl)
theorem e_c1v2 (e : Fin 64) : idx_main_call1_v2 (ix2 (0 : Fin 1) e) = ix1 e :=
  funext fun a => Fin.ext (by match a with | ⟨0, _⟩ => rfl)
theorem e_c1v1 (e : Fin 64) (k : Fin 256) : idx_main_call1_v1 (ix1 e) k = ix2 k e :=
  funext fun a => Fin.ext (by match a with | ⟨0, _⟩ => rfl | ⟨1, _⟩ => rfl)
theorem e_l1 (r : Fin 32768) (j : Fin 256) (k : Fin 768) : lidx_main_v1 (ix2 r j) k = ix2 r k :=
  funext fun a => Fin.ext (by match a with | ⟨0, _⟩ => rfl | ⟨1, _⟩ => rfl)
theorem e_r1 (r : Fin 32768) (j : Fin 256) (k : Fin 768) : ridx_main_v1 (ix2 r j) k = ix2 k j :=
  funext fun a => Fin.ext (by match a with | ⟨0, _⟩ => rfl | ⟨1, _⟩ => rfl)
theorem e_0 (k : Fin 768) (j : Fin 256) : idx_main_v0 (ix2 k j) = ix2 j k :=
  funext fun a => Fin.ext (by match a with | ⟨0, _⟩ => rfl | ⟨1, _⟩ => rfl)
theorem e_3 (r : Fin 32768) (j : Fin 256) : idx_main_v3 (ix2 r j) = ix2 (0 : Fin 1) j :=
  funext fun a => Fin.ext (by match a with | ⟨0, _⟩ => rfl | ⟨1, _⟩ => rfl)
theorem e_2 (j : Fin 256) : idx_main_v2 (ix2 (0 : Fin 1) j) = ix1 j :=
  funext fun a => Fin.ext (by match a with | ⟨0, _⟩ => rfl)

section
variable (x0 : (⟨S32768x768, .f32⟩ : BufTy).Contents (Elt Ideal)) (x1 : (⟨S256x768, .f32⟩ : BufTy).Contents (Elt Ideal))
  (x2 : (⟨S256, .f32⟩ : BufTy).Contents (Elt Ideal)) (x3 : (⟨S256x64, .f32⟩ : BufTy).Contents (Elt Ideal))
  (x4 : (⟨S1, .f32⟩ : BufTy).Contents (Elt Ideal))

/-- The projected matrix at (r, j) is the projection of token row `r`. -/
theorem projected_apply (r : Fin 32768) (j : Fin 256) :
    val_main_v4 (F := Ideal) x0 x1 x2 (ix2 r j)
      = proj (fun k => x0 (ix2 r k)) (fun j k => x1 (ix2 j k)) (fun j => x2 (ix1 j)) j := by
  rw [val_main_v4_apply, val_main_v1_apply, val_main_v3_apply, e_3, val_main_v2_apply, e_2]
  unfold proj
  refine congrArg (· + _) (Finset.sum_congr rfl fun k _ => ?_)
  rw [e_l1, e_r1, val_main_v0_apply, e_0]

/-- The clamped norm of projected row `r`, as the reference computes it (a sum from a zero initial value). -/
theorem rowNorm_apply (r : Fin 32768) :
    val_main_v7 (F := Ideal) x0 x1 x2 (ix2 r (0 : Fin 1))
      = nrm (proj (fun k => x0 (ix2 r k)) (fun j k => x1 (ix2 j k)) (fun j => x2 (ix1 j))) := by
  rw [val_main_v7_apply, val_main_v5_apply, val_main_call0_v2_apply, e_c0v2, val_main_call0_v1_apply, val_main_call0_cst_apply,
    val_main_v6_apply, val_main_cst_apply]
  unfold nrm
  show max (Ideal.sqrt (Ideal.ofBits .f32 0x00000000#32 + _)) _ = _
  rw [Ideal.ofBits_zero_f32, zero_add]
  refine congrArg (fun z => max (Ideal.sqrt z) _) (Finset.sum_congr rfl fun k _ => ?_)
  rw [e_c0v1, val_main_call0_v0_apply, projected_apply]
  rfl

/-- The normalised projected matrix at (r, j). -/
theorem normalisedRows_apply (r : Fin 32768) (j : Fin 256) :
    val_main_v9 (F := Ideal) x0 x1 x2 (ix2 r j)
      = Ideal.div (proj (fun k => x0 (ix2 r k)) (fun j k => x1 (ix2 j k)) (fun j => x2 (ix1 j)) j)
          (nrm (proj (fun k => x0 (ix2 r k)) (fun j k => x1 (ix2 j k)) (fun j => x2 (ix1 j)))) := by
  rw [val_main_v9_apply, val_main_v8_apply, e_8, rowNorm_apply, projected_apply]
  rfl

/-- The clamped norm of expert column `e`. -/
theorem columnNorm_apply (e : Fin 64) :
    val_main_v12 (F := Ideal) x3 (ix2 (0 : Fin 1) e) = nrm fun j' => x3 (ix2 j' e) := by
  rw [val_main_v12_apply, val_main_v10_apply, val_main_call1_v2_apply, e_c1v2, val_main_call1_v1_apply, val_main_call1_cst_apply,
    val_main_v11_apply, val_main_cst_0_apply]
  unfold nrm
  show max (Ideal.sqrt (Ideal.ofBits .f32 0x00000000#32 + _)) _ = _
  rw [Ideal.ofBits_zero_f32, zero_add]
  refine congrArg (fun z => max (Ideal.sqrt z) _) (Finset.sum_congr rfl fun k _ => ?_)
  rw [e_c1v1, val_main_call1_v0_apply]
  rfl

/-- The normalised expert matrix at (j, e). -/
theorem normalisedColumns_apply (j : Fin 256) (e : Fin 64) :
    val_main_v14 (F := Ideal) x3 (ix2 j e) = Ideal.div (x3 (ix2 j e)) (nrm fun j' => x3 (ix2 j' e)) := by
  rw [val_main_v14_apply, val_main_v13_apply, e_13, columnNorm_apply]
  rfl

/-- THE REFERENCE AT AN INDEX: entry (r, e) of the result is `gateNormalisedRows` of token row `r`. -/
theorem result_apply (r : Fin 32768) (e : Fin 64) :
    val_main_v19 (F := Ideal) x0 x1 x2 x3 x4 (ix2 r e)
      = gateNormalisedRows (fun k => x0 (ix2 r k)) (fun j k => x1 (ix2 j k)) (fun j => x2 (ix1 j))
          (fun j e => x3 (ix2 j e)) (x4 (ix1 (0 : Fin 1))) e := by
  rw [val_main_v19_apply, val_main_v15_apply, val_main_v18_apply, e_18, val_main_v17_apply, e_17, val_main_v16_apply]
  have hsum : (∑ k : Fin 256, val_main_v9 (F := Ideal) x0 x1 x2 (lidx_main_v15 (ix2 r e) k) * val_main_v14 (F := Ideal) x3 (ridx_main_v15 (ix2 r e) k))
      = ∑ j : Fin 256, Ideal.div (proj (fun k => x0 (ix2 r k)) (fun j k => x1 (ix2 j k)) (fun j => x2 (ix1 j)) j)
            (nrm (proj (fun k => x0 (ix2 r k)) (fun j k => x1 (ix2 j k)) (fun j => x2 (ix1 j))))
          * Ideal.div (x3 (ix2 j e)) (nrm fun j' => x3 (ix2 j' e)) :=
    Finset.sum_congr rfl fun k _ => by rw [e_l15, e_r15, normalisedRows_apply, normalisedColumns_apply]
  rw [hsum, Ideal.mulf_def, Ideal.hostUnary_exp_def]
  rfl

end

end Cert.CosineGate.RefValue

end
-- ==== Proof.lean ====
/-
  The cosine-router gate: a fused kernel against its plain reference, equal on the extended reals for finite inputs.

  Both programs compute, for each of 32768 token rows `x r` and 64 experts `e`,
      normalise (x r · Wᵀ + b) · normalise_columns (S) · exp t,
  where a vector is normalised by dividing by `max (its Euclidean norm) ε`. They differ in arrangement only. The kernel, on
  blocks of 4096 rows, multiplies the un-normalised projection into the expert columns already normalised and scaled by
  `exp t`, then multiplies by `1 / max ‖projection‖ ε`, stores the block transposed, and the host transposes back; its two
  narrowings to bf16 change no value on the extended reals. The reference normalises rows and columns first and scales by
  `exp t` last. A factor crosses a sum only where the terms are finite, so the law (`Cert.CosineGate.gate_eq`) is proved for
  real data, and the precondition — every entry of every argument array has absolute value below +∞ — is what makes the data
  real (`Cert.CosineGate.Finite.reals_of_pre`). The modules: Spec (the two arrangements and the law), Arrays (the law over the
  whole result), Finite (the precondition read), Payload (the kernel body at an index), KernelValue (blocks to array),
  KernelRun (the host operations around the launch, and the run), RefValue (the reference at an index).
-/
import proofs.«157020_g85023172591907_cont_9to1c4b_591_34_alg».proof.Defs
import proofs.«157020_g85023172591907_cont_9to1c4b_591_34_alg».proof.Proof.Gen.Kernel
import proofs.«157020_g85023172591907_cont_9to1c4b_591_34_alg».proof.Proof.Gen.Kernel.Skeleton
import proofs.«157020_g85023172591907_cont_9to1c4b_591_34_alg».proof.Proof.Gen.Kernel.Launch
import proofs.«157020_g85023172591907_cont_9to1c4b_591_34_alg».proof.Proof.Gen.Kernel.Points
import proofs.«157020_g85023172591907_cont_9to1c4b_591_34_alg».proof.Proof.Gen.Kernel.Frame
import proofs.«157020_g85023172591907_cont_9to1c4b_591_34_alg».proof.Proof.Gen.KernelIdeal
import proofs.«157020_g85023172591907_cont_9to1c4b_591_34_alg».proof.Proof.Gen.KernelIdeal.Skeleton
import proofs.«157020_g85023172591907_cont_9to1c4b_591_34_alg».proof.Proof.Gen.KernelIdeal.Launch
import proofs.«157020_g85023172591907_cont_9to1c4b_591_34_alg».proof.Proof.Gen.KernelIdeal.Points
import proofs.«157020_g85023172591907_cont_9to1c4b_591_34_alg».proof.Proof.Gen.KernelIdeal.Frame
import proofs.«157020_g85023172591907_cont_9to1c4b_591_34_alg».proof.Proof.Gen.ReferenceIdeal
import proofs.«157020_g85023172591907_cont_9to1c4b_591_34_alg».proof.Proof.Gen.Pre_finite_inputs
import proofs.«157020_g85023172591907_cont_9to1c4b_591_34_alg».proof.Proof.Gen.ReferenceIdeal.Run
import proofs.«157020_g85023172591907_cont_9to1c4b_591_34_alg».proof.Proof.Gen.ReferenceIdeal.Read
import proofs.«157020_g85023172591907_cont_9to1c4b_591_34_alg».proof.Proof.Arrays
import proofs.«157020_g85023172591907_cont_9to1c4b_591_34_alg».proof.Proof.Finite
import proofs.«157020_g85023172591907_cont_9to1c4b_591_34_alg».proof.Proof.KernelRun
import proofs.«157020_g85023172591907_cont_9to1c4b_591_34_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.CosineGate

/-- The reference's whole result is the array with rows and columns normalised first. -/
theorem reference_array (x0 : (⟨Cert.ReferenceIdeal.S32768x768, .f32⟩ : BufTy).Contents (Elt Ideal))
    (x1 : (⟨Cert.ReferenceIdeal.S256x768, .f32⟩ : BufTy).Contents (Elt Ideal))
    (x2 : (⟨Cert.ReferenceIdeal.S256, .f32⟩ : BufTy).Contents (Elt Ideal))
    (x3 : (⟨Cert.ReferenceIdeal.S256x64, .f32⟩ : BufTy).Contents (Elt Ideal))
    (x4 : (⟨Cert.ReferenceIdeal.S1, .f32⟩ : BufTy).Contents (Elt Ideal)) :
    Cert.ReferenceIdeal.Read.val_main_v19 (F := Ideal) x0 x1 x2 x3 x4 = arrayNormalisedRows x0 x1 x2 x3 x4 := by
  funext i
  obtain ⟨r, e, rfl⟩ : ∃ (r : Fin 32768) (e : Fin 64), i = ix2 r e := ⟨i 0, i 1, eq_ix2 i⟩
  exact RefValue.result_apply x0 x1 x2 x3 x4 r e

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealisation: widening back a value narrowed to bf16 is the identity on the extended reals. -/
theorem preserves : Cert.preserves_Kernel_KernelIdeal :=
  IdealRules.truncf_extf.statement Cert.KernelIdeal.S4096x256 .f32 .bf16

/-- From memories agreeing on finite arguments both programs end with the same 32768 × 64 array: the kernel's run gives the
    arrangement with scaled columns, the reference's run the arrangement with normalised rows, and on real data they are one. -/
theorem algebraic : Cert.algebraic_KernelIdeal_ReferenceIdeal := by
  intro m ρ m' ρ' hpre hagree
  refine ⟨fun c => arrayNormalisedRows (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (KernelRun.run m ρ)
    obtain ⟨h0, h1, h2, h3, h4⟩ := Finite.reals_of_pre _ _ _ _ _ (hpre c)
    exact array_eq _ _ _ _ _ h0 h1 h2 h3 h4
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, (hagree c).1, (hagree c).2.1, (hagree c).2.2.1, (hagree c).2.2.2.1, (hagree c).2.2.2.2]
    exact reference_array _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
